-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x256x256 : Shape := ⟨4, ![4, 256, 256, 256]⟩
abbrev S256x32 : Shape := ⟨2, ![256, 32]⟩
abbrev S32 : Shape := ⟨1, ![32]⟩
abbrev S256x256 : Shape := ⟨2, ![256, 256]⟩
abbrev S256 : Shape := ⟨1, ![256]⟩
abbrev S_ : Shape := ⟨0, ![]⟩

class Facts : Prop where
  bcast_S_S4x256x256x256 : S_.BroadcastsInDim S4x256x256x256 (![] : Fin 0 → Fin S4x256x256x256.rank)
  reducesTo_S4x256x256x256_S_d0_1_2_3 : S4x256x256x256.ReducesTo [0, 1, 2, 3] S_
  h_S_ : 0 < S_.numel
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S32 .f32) (main_arg5 : FVec F S256x256 .f32) (main_arg6 : FVec F S256 .f32) (main_v13 : IVec S_ 1) (main_v16 : IVec S256x32 1) : IVec S_ 1 :=
  let main_c_5 : IVec S_ 1 := constantI S_ 1 1#1
  let main_v17 : IVec S_ 1 := (fun x v => Host.reduce IntOp.andi x v reducesTo_S256x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S4x256x256x256 .f32) (main_arg1 : FVec F S256x32 .f32) (main_arg2 : FVec F S32 .f32) (main_arg3 : FVec F S256x32 .f32) (main_arg4 : FVec F S32 .f32) (main_arg5 : FVec F S256x256 .f32) (main_arg6 : FVec F S256 .f32) : IVec S_ 1 :=
  let main_v0 : FVec F S4x256x256x256 .f32 := Host.absf main_arg0
  let main_cst : FVec F S_ .f32 := constant S_ .f32 0x7F800000#32
  let main_v1 : FVec F S4x256x256x256 .f32 := broadcastInDim S4x256x256x256 ![] bcast_S_S4x256x256x256 main_cst
  let main_v2 : IVec S4x256x256x256 1 := cmpf .olt main_v0 main_v1
  let main_c : IVec S_ 1 := constantI S_ 1 1#1
  let main_v3 : IVec S_ 1 := (fun x v => Host.reduce IntOp.andi x v reducesTo_S4x256x256x256_S_d0_1_2_3 h_S_) main_v2 main_c
  let main_v4 : FVec F S256x32 .f32 := Host.absf main_arg1
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S256x32 .f32 := Host.absf main_arg3
  let main_cst_4 : FVec F S_ .f32 := constant S_ .f32 0x7F800000#32
  let main_v15 : FVec F S256x32 .f32 := broadcastInDim S256x32 ![] bcast_S_S256x32 main_cst_4
  let main_v16 : IVec S256x32 1 := cmpf .olt main_v14 main_v15
  fn_part1 (F := F) main_arg4 main_arg5 main_arg6 main_v13 main_v16
-- ==== Kernel.lean ====
abbrev S4x256x256x256 : Shape := ⟨4, ![4, 256, 256, 256]⟩
abbrev S256x32 : Shape := ⟨2, ![256, 32]⟩
abbrev S32 : Shape := ⟨1, ![32]⟩
abbrev S256x256 : Shape := ⟨2, ![256, 256]⟩
abbrev S256 : Shape := ⟨1, ![256]⟩
abbrev S1024x256x256 : Shape := ⟨3, ![1024, 256, 256]⟩
abbrev S256x64 : Shape := ⟨2, ![256, 64]⟩
abbrev S64 : Shape := ⟨1, ![64]⟩
abbrev S1x1x64 : Shape := ⟨3, ![1, 1, 64]⟩
abbrev S1x1x256 : Shape := ⟨3, ![1, 1, 256]⟩
abbrev S16x256x256 : Shape := ⟨3, ![16, 256, 256]⟩
abbrev S4096x256 : Shape := ⟨2, ![4096, 256]⟩
abbrev S1x64 : Shape := ⟨2, ![1, 64]⟩
abbrev S4096x64 : Shape := ⟨2, ![4096, 64]⟩
abbrev S4096x32 : Shape := ⟨2, ![4096, 32]⟩
abbrev S16x256x32 : Shape := ⟨3, ![16, 256, 32]⟩
abbrev S1x256 : Shape := ⟨2, ![1, 256]⟩

abbrev nBuf : Space → Nat
  | .hbm => 14
  | .vmem => 8
  | .smem => 0
  | _ => 0

abbrev bufTy : (tb : Table) → Fin (tcTables nBuf tb) → BufTy
  | .hbm, ⟨0, _⟩ => ⟨S4x256x256x256, .f32⟩
  | .hbm, ⟨1, _⟩ => ⟨S256x32, .f32⟩
  | .hbm, ⟨2, _⟩ => ⟨S32, .f32⟩
  | .hbm, ⟨3, _⟩ => ⟨S256x32, .f32⟩
  | .hbm, ⟨4, _⟩ => ⟨S32, .f32⟩
  | .hbm, ⟨5, _⟩ => ⟨S256x256, .f32⟩
  | .hbm, ⟨6, _⟩ => ⟨S256, .f32⟩
  | .hbm, ⟨7, _⟩ => ⟨S1024x256x256, .f32⟩
  | .hbm, ⟨8, _⟩ => ⟨S256x64, .f32⟩
  | .hbm, ⟨9, _⟩ => ⟨S64, .f32⟩
  | .hbm, ⟨10, _⟩ => ⟨S1x1x64, .f32⟩
  | .hbm, ⟨11, _⟩ => ⟨S1x1x256, .f32⟩
  | .hbm, ⟨12, _⟩ => ⟨S1024x256x256, .f32⟩
  | .hbm, ⟨13, _⟩ => ⟨S4x256x256x256, .f32⟩
  | .local _ .vmem, ⟨0, _⟩ => ⟨S16x256x256, .f32⟩
  | .local _ .vmem, ⟨1, _⟩ => ⟨S16x256x256, .f32⟩
  | .local _ .vmem, ⟨2, _⟩ => ⟨S256x64, .f32⟩
  | .local _ .vmem, ⟨3, _⟩ => ⟨S1x1x64, .f32⟩
  | .local _ .vmem, ⟨4, _⟩ => ⟨S256x256, .f32⟩
  | .local _ .vmem, ⟨5, _⟩ => ⟨S1x1x256, .f32⟩
  | .local _ .vmem, ⟨6, _⟩ => ⟨S16x256x256, .f32⟩
  | .local _ .vmem, ⟨7, _⟩ => ⟨S16x256x256, .f32⟩
  | _, _ => ⟨S4x256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x256x256x256_S1024x256x256 : S4x256x256x256.ShapeCasts S1024x256x256
  concatenates_S256x32_S256x32_S256x64_d1 : Shape.Concatenates [S256x32, S256x32] S256x64 1
  concatenates_S32_S32_S64_d0 : Shape.Concatenates [S32, S32] S64 0
  shapeCasts_S64_S1x1x64 : S64.ShapeCasts S1x1x64
  shapeCasts_S256_S1x1x256 : S256.ShapeCasts S1x1x256
  inb_S16x256x256_S16x256x256_0_0_0 : ∀ a, (![0, 0, 0] : Fin 3 → Nat) a + S16x256x256.size a ≤ S16x256x256.size a
  h_S16x256x256 : 0 < S16x256x256.numel
  shapeCasts_S16x256x256_S16x256x256 : S16x256x256.ShapeCasts S16x256x256
  shapeCasts_S16x256x256_S4096x256 : S16x256x256.ShapeCasts S4096x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  shapeCasts_S1x1x64_S1x64 : S1x1x64.ShapeCasts S1x64
  broadcasts_S1x64_S4096x64 : S1x64.Broadcasts S4096x64
  slices_S4096x64_o0_0_S4096x32 : S4096x64.Slices ![0, 0] S4096x32
  shapeCasts_S4096x32_S16x256x32 : S4096x32.ShapeCasts S16x256x32
  slices_S4096x64_o0_32_S4096x32 : S4096x64.Slices ![0, 32] S4096x32
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S1x1x256_S1x1x256_0_0_0 : ∀ a, (![0, 0, 0] : Fin 3 → Nat) a + S1x1x256.size a ≤ S1x1x256.size a
  h_S1x1x256 : 0 < S1x1x256.numel
  shapeCasts_S1x1x256_S1x1x256 : S1x1x256.ShapeCasts S1x1x256
  shapeCasts_S1x1x256_S1x256 : S1x1x256.ShapeCasts S1x256
  broadcasts_S1x256_S4096x256 : S1x256.Broadcasts S4096x256
  shapeCasts_S4096x256_S16x256x256 : S4096x256.ShapeCasts S16x256x256
  shapeCasts_S1024x256x256_S4x256x256x256 : S1024x256x256.ShapeCasts S4x256x256x256
  dot_S4096x256_S256x64_S4096x64_1_0_0_1_n_n_wf : DotDims.WF S4096x256 S256x64 S4096x64 [1] [0] [0] [1] [] []
  dot_S16x256x32_S16x256x32_S16x256x256_2_2_1_1_0_0_wf : DotDims.WF S16x256x32 S16x256x32 S16x256x256 [2] [2] [1] [1] [0] [0]
  dot_S4096x256_S256x256_S4096x256_1_0_0_1_n_n_wf : DotDims.WF S4096x256 S256x256 S4096x256 [1] [0] [0] [1] [] []
  dot_S16x256x256_S16x256x256_S16x256x256_2_1_1_2_0_0_wf : DotDims.WF S16x256x256 S16x256x256 S16x256x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x256.size a ≤ S1024x256x256.size a
  hwx0_0 : ∀ i : grid0.Coords, EltTy.bits .f32 = 32 ∨ (Rect.block (s := S1024x256x256) S16x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x64.size a ≤ S1x1x64.size a
  hwx0_2 : ∀ i : grid0.Coords, EltTy.bits .f32 = 32 ∨ (Rect.block (s := S1x1x64) S1x1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S1x1x256.size a
  hwx0_4 : ∀ i : grid0.Coords, EltTy.bits .f32 = 32 ∨ (Rect.block (s := S1x1x256) S1x1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x256x256.size a ≤ S1024x256x256.size a
  hwx0_5 : ∀ i : grid0.Coords, EltTy.bits .f32 = 32 ∨ (Rect.block (s := S1024x256x256) S16x256x256.size (cc0_transform_5 i) (hinb0_5 i)).WholeWords (EltTy.packing .f32)

variable [Facts₀]

def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S16x256x32_S16x256x32_S16x256x256_2_2_1_1_0_0 : DotDims S16x256x32 S16x256x32 S16x256x256 where
  lhsContracting := [2]
  rhsContracting := [2]
  lhsNonContracting := [1]
  rhsNonContracting := [1]
  lhsBatch := [0]
  rhsBatch := [0]
  wf := dot_S16x256x32_S16x256x32_S16x256x256_2_2_1_1_0_0_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S16x256x256_S16x256x256_S16x256x256_2_1_1_2_0_0 : DotDims S16x256x256 S16x256x256 S16x256x256 where
  lhsContracting := [2]
  rhsContracting := [1]
  lhsNonContracting := [1]
  rhsNonContracting := [2]
  lhsBatch := [0]
  rhsBatch := [0]
  wf := dot_S16x256x256_S16x256x256_S16x256x256_2_1_1_2_0_0_wf

abbrev win0_0 : Pipeline.Window sig grid0 :=
  Pipeline.Window.ofSpec (Memref.whole main_v0) S16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S16x256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x256x256x256 : Shape := ⟨4, ![4, 256, 256, 256]⟩
abbrev S256x32 : Shape := ⟨2, ![256, 32]⟩
abbrev S32 : Shape := ⟨1, ![32]⟩
abbrev S256x256 : Shape := ⟨2, ![256, 256]⟩
abbrev S256 : Shape := ⟨1, ![256]⟩
abbrev S4x256x256x32 : Shape := ⟨4, ![4, 256, 256, 32]⟩
abbrev S1x1x1x32 : Shape := ⟨4, ![1, 1, 1, 32]⟩
abbrev S1x1x1x256 : Shape := ⟨4, ![1, 1, 1, 256]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4x256x256x256, .f32⟩
  | .hbm, ⟨1, _⟩ => ⟨S256x32, .f32⟩
  | .hbm, ⟨2, _⟩ => ⟨S32, .f32⟩
  | .hbm, ⟨3, _⟩ => ⟨S256x32, .f32⟩
  | .hbm, ⟨4, _⟩ => ⟨S32, .f32⟩
  | .hbm, ⟨5, _⟩ => ⟨S256x256, .f32⟩
  | .hbm, ⟨6, _⟩ => ⟨S256, .f32⟩
  | .hbm, ⟨7, _⟩ => ⟨S4x256x256x32, .f32⟩
  | .hbm, ⟨8, _⟩ => ⟨S1x1x1x32, .f32⟩
  | .hbm, ⟨9, _⟩ => ⟨S4x256x256x32, .f32⟩
  | .hbm, ⟨10, _⟩ => ⟨S4x256x256x32, .f32⟩
  | .hbm, ⟨11, _⟩ => ⟨S4x256x256x32, .f32⟩
  | .hbm, ⟨12, _⟩ => ⟨S1x1x1x32, .f32⟩
  | .hbm, ⟨13, _⟩ => ⟨S4x256x256x32, .f32⟩
  | .hbm, ⟨14, _⟩ => ⟨S4x256x256x32, .f32⟩
  | .hbm, ⟨15, _⟩ => ⟨S4x256x256x256, .f32⟩
  | .hbm, ⟨16, _⟩ => ⟨S1x1x1x256, .f32⟩
  | .hbm, ⟨17, _⟩ => ⟨S4x256x256x256, .f32⟩
  | .hbm, ⟨18, _⟩ => ⟨S4x256x256x256, .f32⟩
  | .hbm, ⟨19, _⟩ => ⟨S4x256x256x256, .f32⟩
  | .hbm, ⟨20, _⟩ => ⟨S4x256x256x256, .f32⟩
  | .hbm, ⟨21, _⟩ => ⟨S4x256x256x256, .f32⟩
  | .hbm, ⟨22, _⟩ => ⟨S_, .f32⟩
  | .hbm, ⟨23, _⟩ => ⟨S4x256x256x256, .f32⟩
  | .hbm, ⟨24, _⟩ => ⟨S4x256x256x256, .f32⟩
  | .hbm, ⟨25, _⟩ => ⟨S_, .f32⟩
  | .hbm, ⟨26, _⟩ => ⟨S4x256x256x256, .f32⟩
  | .hbm, ⟨27, _⟩ => ⟨S4x256x256x256, .f32⟩
  | .hbm, ⟨28, _⟩ => ⟨S4x256x256x256, .f32⟩
  | _, _ => ⟨S4x256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S32_S1x1x1x32_3 : S32.BroadcastsInDim S1x1x1x32 (![3] : Fin 1 → Fin S1x1x1x32.rank)
  bcast_S1x1x1x32_S4x256x256x32_0_1_2_3 : S1x1x1x32.BroadcastsInDim S4x256x256x32 (![0, 1, 2, 3] : Fin 4 → Fin S4x256x256x32.rank)
  bcast_S256_S1x1x1x256_3 : S256.BroadcastsInDim S1x1x1x256 (![3] : Fin 1 → Fin S1x1x1x256.rank)
  bcast_S1x1x1x256_S4x256x256x256_0_1_2_3 : S1x1x1x256.BroadcastsInDim S4x256x256x256 (![0, 1, 2, 3] : Fin 4 → Fin S4x256x256x256.rank)
  bcast_S_S4x256x256x256 : S_.BroadcastsInDim S4x256x256x256 (![] : Fin 0 → Fin S4x256x256x256.rank)
  dot_S4x256x256x256_S256x32_S4x256x256x32_3_0_012_1_n_n_wf : DotDims.WF S4x256x256x256 S256x32 S4x256x256x32 [3] [0] [0, 1, 2] [1] [] []
  dot_S4x256x256x256_S256x256_S4x256x256x256_3_0_012_1_n_n_wf : DotDims.WF S4x256x256x256 S256x256 S4x256x256x256 [3] [0] [0, 1, 2] [1] [] []
  dot_S4x256x256x32_S4x256x256x32_S4x256x256x256_3_3_2_2_01_01_wf : DotDims.WF S4x256x256x32 S4x256x256x32 S4x256x256x256 [3] [3] [2] [2] [0, 1] [0, 1]
  dot_S4x256x256x256_S4x256x256x256_S4x256x256x256_3_2_2_3_01_01_wf : DotDims.WF S4x256x256x256 S4x256x256x256 S4x256x256x256 [3] [2] [2] [3] [0, 1] [0, 1]

variable [Facts₀]

def dot_S4x256x256x256_S256x32_S4x256x256x32_3_0_012_1_n_n : DotDims S4x256x256x256 S256x32 S4x256x256x32 where
  lhsContracting := [3]
  rhsContracting := [0]
  lhsNonContracting := [0, 1, 2]
  rhsNonContracting := [1]
  lhsBatch := []
  rhsBatch := []
  wf := dot_S4x256x256x256_S256x32_S4x256x256x32_3_0_012_1_n_n_wf
def dot_S4x256x256x256_S256x256_S4x256x256x256_3_0_012_1_n_n : DotDims S4x256x256x256 S256x256 S4x256x256x256 where
  lhsContracting := [3]
  rhsContracting := [0]
  lhsNonContracting := [0, 1, 2]
  rhsNonContracting := [1]
  lhsBatch := []
  rhsBatch := []
  wf := dot_S4x256x256x256_S256x256_S4x256x256x256_3_0_012_1_n_n_wf
def dot_S4x256x256x32_S4x256x256x32_S4x256x256x256_3_3_2_2_01_01 : DotDims S4x256x256x32 S4x256x256x32 S4x256x256x256 where
  lhsContracting := [3]
  rhsContracting := [3]
  lhsNonContracting := [2]
  rhsNonContracting := [2]
  lhsBatch := [0, 1]
  rhsBatch := [0, 1]
  wf := dot_S4x256x256x32_S4x256x256x32_S4x256x256x256_3_3_2_2_01_01_wf
def dot_S4x256x256x256_S4x256x256x256_S4x256x256x256_3_2_2_3_01_01 : DotDims S4x256x256x256 S4x256x256x256 S4x256x256x256 where
  lhsContracting := [3]
  rhsContracting := [2]
  lhsNonContracting := [2]
  rhsNonContracting := [3]
  lhsBatch := [0, 1]
  rhsBatch := [0, 1]
  wf := dot_S4x256x256x256_S4x256x256x256_S4x256x256x256_3_2_2_3_01_01_wf

class Facts : Prop extends Facts₀ where

variable [Facts]
-- ==== Proof.AttnSpec.lean ====
/-
  The function both programs compute, on the extended reals.

  For one image row (a fixed batch entry b and height h) let X be the 256 × 256 matrix of that row's pixels
  (width × channels).  Three affine maps of the channels are taken at every pixel,
      f = X·Wf + bf   (256 × 32),     g = X·Wg + bg   (256 × 32),     v = X·Wh + bh   (256 × 256),
  the pixels of the row are compared pairwise, s(i, j) = Σ_k f(i, k) · g(j, k), and the result at pixel i and
  channel o is Σ_j σ(s(i, j)) · v(j, o), with σ the logistic function 1 / (1 + e^(-s)).
  `attnRow` is that value; `G` is the whole result array [4, 256, 256, 256], every row treated alike.
-/
import Idealize.ShloMosaic.PureOps.Ideal
import Idealize.ShloMosaic.Lib.ValueIdx

noncomputable section

open scoped BigOperators

namespace Cert.Attn

open Idealize.ShloMosaic Idealize.ShloMosaic.ValueIdx

/-- An affine map of the channels at pixel `p`, output channel `k`: Σ_c X(p, c) · W(c, k) + b(k). -/
def proj {n : Nat} (X : Fin 256 → Fin 256 → EReal) (W : Fin 256 → Fin n → EReal) (b : Fin n → EReal)
    (p : Fin 256) (k : Fin n) : EReal :=
  (∑ c : Fin 256, X p c * W c k) + b k

/-- The pairwise comparison of pixels i and j of a row: Σ_k f(i, k) · g(j, k). -/
def score (X : Fin 256 → Fin 256 → EReal) (Wf Wg : Fin 256 → Fin 32 → EReal) (bf bg : Fin 32 → EReal)
    (i j : Fin 256) : EReal :=
  ∑ k : Fin 32, proj X Wf bf i k * proj X Wg bg j k

/-- The result at pixel i and channel o of a row: Σ_j σ(s(i, j)) · v(j, o). -/
def attnRow (X : Fin 256 → Fin 256 → EReal) (Wf Wg : Fin 256 → Fin 32 → EReal) (bf bg : Fin 32 → EReal)
    (Wh : Fin 256 → Fin 256 → EReal) (bh : Fin 256 → EReal) (i o : Fin 256) : EReal :=
  ∑ j : Fin 256, Ideal.logistic (score X Wf Wg bf bg i j) * proj X Wh bh j o

/-- The row's value depends on the row and the parameters only through their entries. -/
theorem attnRow_congr {X X' : Fin 256 → Fin 256 → EReal} {Wf Wf' Wg Wg' : Fin 256 → Fin 32 → EReal} {bf bf' bg bg' : Fin 32 → EReal}
    {Wh Wh' : Fin 256 → Fin 256 → EReal} {bh bh' : Fin 256 → EReal} (i o : Fin 256)
    (hX : ∀ p c, X p c = X' p c) (hWf : ∀ c k, Wf c k = Wf' c k) (hWg : ∀ c k, Wg c k = Wg' c k)
    (hbf : ∀ k, bf k = bf' k) (hbg : ∀ k, bg k = bg' k) (hWh : ∀ c o, Wh c o = Wh' c o) (hbh : ∀ o, bh o = bh' o) :
    attnRow X Wf Wg bf bg Wh bh i o = attnRow X' Wf' Wg' bf' bg' Wh' bh' i o := by
  obtain rfl : X = X' := funext fun p => funext fun c => hX p c
  obtain rfl : Wf = Wf' := funext fun c => funext fun k => hWf c k
  obtain rfl : Wg = Wg' := funext fun c => funext fun k => hWg c k
  obtain rfl : bf = bf' := funext hbf
  obtain rfl : bg = bg' := funext hbg
  obtain rfl : Wh = Wh' := funext fun c => funext fun o => hWh c o
  obtain rfl : bh = bh' := funext hbh
  rfl

/-- The whole result: at (b, h, i, o) the row (b, h)'s value at pixel i and channel o. -/
def G (x : (⟨4, ![4, 256, 256, 256]⟩ : Shape).Idx → EReal)
    (Wf : (⟨2, ![256, 32]⟩ : Shape).Idx → EReal) (bf : (⟨1, ![32]⟩ : Shape).Idx → EReal)
    (Wg : (⟨2, ![256, 32]⟩ : Shape).Idx → EReal) (bg : (⟨1, ![32]⟩ : Shape).Idx → EReal)
    (Wh : (⟨2, ![256, 256]⟩ : Shape).Idx → EReal) (bh : (⟨1, ![256]⟩ : Shape).Idx → EReal) :
    (⟨4, ![4, 256, 256, 256]⟩ : Shape).Idx → EReal :=
  fun i => attnRow (fun p c => x (ix4 (i 0) (i 1) p c)) (fun c k => Wf (ix2 c k)) (fun c k => Wg (ix2 c k))
    (fun k => bf (ix1 k)) (fun k => bg (ix1 k)) (fun c o => Wh (ix2 c o)) (fun o => bh (ix1 o)) (i 2) (i 3)

theorem G_apply (x : (⟨4, ![4, 256, 256, 256]⟩ : Shape).Idx → EReal)
    (Wf : (⟨2, ![256, 32]⟩ : Shape).Idx → EReal) (bf : (⟨1, ![32]⟩ : Shape).Idx → EReal)
    (Wg : (⟨2, ![256, 32]⟩ : Shape).Idx → EReal) (bg : (⟨1, ![32]⟩ : Shape).Idx → EReal)
    (Wh : (⟨2, ![256, 256]⟩ : Shape).Idx → EReal) (bh : (⟨1, ![256]⟩ : Shape).Idx → EReal)
    (b : Fin 4) (h i o : Fin 256) :
    G x Wf bf Wg bg Wh bh (ix4 b h i o)
      = attnRow (fun p c => x (ix4 b h p c)) (fun c k => Wf (ix2 c k)) (fun c k => Wg (ix2 c k))
          (fun k => bf (ix1 k)) (fun k => bg (ix1 k)) (fun c o => Wh (ix2 c o)) (fun o => bh (ix1 o)) i o := rfl

end Cert.Attn

end
-- ==== Proof.RefSide.lean ====
/-
  The reference's result is `Attn.G` of its arguments.

  The reference takes the three affine maps of the channels over the whole array [4, 256, 256, 256] at once
  (contracting the channel axis, then adding the bias broadcast along it), compares the pixels of each row
  (b, h) pairwise by contracting the 32 columns, applies 1 / (1 + e^(-s)) spelt out as a negation, an
  exponential, the sum with 1 and the quotient of 1 by it — which is the logistic function on every extended
  real —, and contracts the second pixel axis with the h values.  Read at (b, h, i, o) stage by stage, the
  operand indices are the coordinates one expects, and the term is `Attn.attnRow` of row (b, h).
-/
import proofs.«124189_j15032385536186_2_alg».proof.Proof.Gen.ReferenceIdeal.Read
import proofs.«124189_j15032385536186_2_alg».proof.Proof.AttnSpec
import Idealize.ShloMosaic.PureOps.IdealRules

noncomputable section

open scoped BigOperators

namespace Cert.ReferenceIdeal.RefValue

open Cert.ReferenceIdeal Cert.ReferenceIdeal.Read Idealize.ShloMosaic Idealize.ShloMosaic.ValueIdx

/-! ## The operand indices, by coordinates -/

theorem lidx_v0 (b : Fin 4) (h p : Fin 256) (k : Fin 32) (c : Fin 256) : lidx_main_v0 (ix4 b h p k) c = ix4 b h p c :=
  funext fun a => by match a with | ⟨0, _⟩ => rfl | ⟨1, _⟩ => rfl | ⟨2, _⟩ => rfl | ⟨3, _⟩ => rfl
theorem ridx_v0 (b : Fin 4) (h p : Fin 256) (k : Fin 32) (c : Fin 256) : ridx_main_v0 (ix4 b h p k) c = ix2 c k :=
  funext fun a => by match a with | ⟨0, _⟩ => rfl | ⟨1, _⟩ => rfl
theorem idx_v2 (b : Fin 4) (h p : Fin 256) (k : Fin 32) : idx_main_v1 (idx_main_v2 (ix4 b h p k)) = ix1 k :=
  funext fun a => by match a with | ⟨0, _⟩ => rfl
theorem lidx_v4 (b : Fin 4) (h p : Fin 256) (k : Fin 32) (c : Fin 256) : lidx_main_v4 (ix4 b h p k) c = ix4 b h p c :=
  funext fun a => by match a with | ⟨0, _⟩ => rfl | ⟨1, _⟩ => rfl | ⟨2, _⟩ => rfl | ⟨3, _⟩ => rfl
theorem ridx_v4 (b : Fin 4) (h p : Fin 256) (k : Fin 32) (c : Fin 256) : ridx_main_v4 (ix4 b h p k) c = ix2 c k :=
  funext fun a => by match a with | ⟨0, _⟩ => rfl | ⟨1, _⟩ => rfl
theorem idx_v6 (b : Fin 4) (h p : Fin 256) (k : Fin 32) : idx_main_v5 (idx_main_v6 (ix4 b h p k)) = ix1 k :=
  funext fun a => by match a with | ⟨0, _⟩ => rfl
theorem lidx_v8 (b : Fin 4) (h p o c : Fin 256) : lidx_main_v8 (ix4 b h p o) c = ix4 b h p c :=
  funext fun a => by match a with | ⟨0, _⟩ => rfl | ⟨1, _⟩ => rfl | ⟨2, _⟩ => rfl | ⟨3, _⟩ => rfl
theorem ridx_v8 (b : Fin 4) (h p o c : Fin 256) : ridx_main_v8 (ix4 b h p o) c = ix2 c o :=
  funext fun a => by match a with | ⟨0, _⟩ => rfl | ⟨1, _⟩ => rfl
theorem idx_v10 (b : Fin 4) (h p o : Fin 256) : idx_main_v9 (idx_main_v10 (ix4 b h p o)) = ix1 o :=
  funext fun a => by match a with | ⟨0, _⟩ => rfl
theorem lidx_v12 (b : Fin 4) (h i j : Fin 256) (k : Fin 32) : lidx_main_v12 (ix4 b h i j) k = ix4 b h i k :=
  funext fun a => by match a with | ⟨0, _⟩ => rfl | ⟨1, _⟩ => rfl | ⟨2, _⟩ => rfl | ⟨3, _⟩ => rfl
theorem ridx_v12 (b : Fin 4) (h i j : Fin 256) (k : Fin 32) : ridx_main_v12 (ix4 b h i j) k = ix4 b h j k :=
  funext fun a => by match a with | ⟨0, _⟩ => rfl | ⟨1, _⟩ => rfl | ⟨2, _⟩ => rfl | ⟨3, _⟩ => rfl
theorem lidx_v19 (b : Fin 4) (h i o j : Fin 256) : lidx_main_v19 (ix4 b h i o) j = ix4 b h i j :=
  funext fun a => by match a with | ⟨0, _⟩ => rfl | ⟨1, _⟩ => rfl | ⟨2, _⟩ => rfl | ⟨3, _⟩ => rfl
theorem ridx_v19 (b : Fin 4) (h i o j : Fin 256) : ridx_main_v19 (ix4 b h i o) j = ix4 b h j o :=
  funext fun a => by match a with | ⟨0, _⟩ => rfl | ⟨1, _⟩ => rfl | ⟨2, _⟩ => rfl | ⟨3, _⟩ => rfl

/-- The word 0x3F800000 is the real number 1. -/
theorem one_f32 : Ideal.ofBits .f32 0x3F800000#32 = 1 := IdealRules.sign_bit.ideal_onePat .f32

section
variable (x0 : (⟨S4x256x256x256, .f32⟩ : BufTy).Contents (Elt Ideal)) (x1 : (⟨S256x32, .f32⟩ : BufTy).Contents (Elt Ideal))
  (x2 : (⟨S32, .f32⟩ : BufTy).Contents (Elt Ideal)) (x3 : (⟨S256x32, .f32⟩ : BufTy).Contents (Elt Ideal))
  (x4 : (⟨S32, .f32⟩ : BufTy).Contents (Elt Ideal)) (x5 : (⟨S256x256, .f32⟩ : BufTy).Contents (Elt Ideal))
  (x6 : (⟨S256, .f32⟩ : BufTy).Contents (Elt Ideal))

/-! ## The stages, by coordinates -/

/-- f at (b, h, p, k). -/
theorem f_at (b : Fin 4) (h p : Fin 256) (k : Fin 32) :
    val_main_v3 (F := Ideal) x0 x1 x2 (ix4 b h p k)
      = Attn.proj (fun p c => x0 (ix4 b h p c)) (fun c k => x1 (ix2 c k)) (fun k => x2 (ix1 k)) p k := by
  rw [val_main_v3_apply, val_main_v0_apply, val_main_v2_apply, val_main_v1_apply, idx_v2]
  simp only [lidx_v0, ridx_v0]
  rfl

/-- g at (b, h, p, k). -/
theorem g_at (b : Fin 4) (h p : Fin 256) (k : Fin 32) :
    val_main_v7 (F := Ideal) x0 x3 x4 (ix4 b h p k)
      = Attn.proj (fun p c => x0 (ix4 b h p c)) (fun c k => x3 (ix2 c k)) (fun k => x4 (ix1 k)) p k := by
  rw [val_main_v7_apply, val_main_v4_apply, val_main_v6_apply, val_main_v5_apply, idx_v6]
  simp only [lidx_v4, ridx_v4]
  rfl

/-- The h values at (b, h, p, o). -/
theorem v_at (b : Fin 4) (h p o : Fin 256) :
    val_main_v11 (F := Ideal) x0 x5 x6 (ix4 b h p o)
      = Attn.proj (fun p c => x0 (ix4 b h p c)) (fun c o => x5 (ix2 c o)) (fun o => x6 (ix1 o)) p o := by
  rw [val_main_v11_apply, val_main_v8_apply, val_main_v10_apply, val_main_v9_apply, idx_v10]
  simp only [lidx_v8, ridx_v8]
  rfl

/-- The comparison of pixels i and j of row (b, h). -/
theorem s_at (b : Fin 4) (h i j : Fin 256) :
    val_main_v12 (F := Ideal) x0 x1 x2 x3 x4 (ix4 b h i j)
      = Attn.score (fun p c => x0 (ix4 b h p c)) (fun c k => x1 (ix2 c k)) (fun c k => x3 (ix2 c k))
          (fun k => x2 (ix1 k)) (fun k => x4 (ix1 k)) i j := by
  rw [val_main_v12_apply]
  unfold Attn.score
  refine Finset.sum_congr rfl fun k _ => ?_
  rw [lidx_v12, ridx_v12, f_at, g_at]

/-- 1 / (1 + e^(-s)), spelt out, is the logistic function of the comparison. -/
theorem w_at (b : Fin 4) (h i j : Fin 256) :
    val_main_v18 (F := Ideal) x0 x1 x2 x3 x4 (ix4 b h i j)
      = Ideal.logistic (Attn.score (fun p c => x0 (ix4 b h p c)) (fun c k => x1 (ix2 c k)) (fun c k => x3 (ix2 c k))
          (fun k => x2 (ix1 k)) (fun k => x4 (ix1 k)) i j) := by
  rw [val_main_v18_apply, val_main_v17_apply, val_main_cst_0_apply, val_main_v16_apply, val_main_v15_apply,
    val_main_cst_apply, val_main_v14_apply, val_main_v13_apply, s_at]
  show Ideal.div (Ideal.ofBits .f32 0x3F800000#32) (Ideal.ofBits .f32 0x3F800000#32 + Ideal.exp (-_)) = Ideal.div 1 (1 + Ideal.exp (-_))
  rw [one_f32]

/-- THE REFERENCE'S RESULT at (b, h, i, o). -/
theorem result_at (b : Fin 4) (h i o : Fin 256) :
    val_main_v19 (F := Ideal) x0 x1 x2 x3 x4 x5 x6 (ix4 b h i o)
      = Attn.attnRow (fun p c => x0 (ix4 b h p c)) (fun c k => x1 (ix2 c k)) (fun c k => x3 (ix2 c k))
          (fun k => x2 (ix1 k)) (fun k => x4 (ix1 k)) (fun c o => x5 (ix2 c o)) (fun o => x6 (ix1 o)) i o := by
  rw [val_main_v19_apply]
  unfold Attn.attnRow
  refine Finset.sum_congr rfl fun j _ => ?_
  rw [lidx_v19, ridx_v19, w_at, v_at]

/-- The reference's result array is `Attn.G` of its arguments. -/
theorem result_eq : val_main_v19 (F := Ideal) x0 x1 x2 x3 x4 x5 x6 = Attn.G x0 x1 x2 x3 x4 x5 x6 := by
  funext i
  obtain ⟨b, h, p, o, rfl⟩ : ∃ (b : Fin 4) (h p o : Fin 256), i = ix4 b h p o := ⟨i 0, i 1, i 2, i 3, eq_ix4 i⟩
  rw [result_at, Attn.G_apply]

end

end Cert.ReferenceIdeal.RefValue

end
-- ==== Proof.KernelDots.lean ====
/-
  The kernel's four matrix products read at an index, at the ideal values: each, accumulated into zero, is
  the plain sum over the contracted coordinate of the products of the two operands' entries.
    • rows × weights        [4096, 256] · [256, 64]  → [4096, 64]      (r, q) ↦ Σ_c l(r, c) · w(c, q)
    • rows × weights        [4096, 256] · [256, 256] → [4096, 256]     (r, o) ↦ Σ_c l(r, c) · w(c, o)
    • pairwise comparison   [16, 256, 32] , [16, 256, 32] → [16, 256, 256]   (n, i, j) ↦ Σ_k l(n, i, k) · r(n, j, k)
    • weighted sum          [16, 256, 256] · [16, 256, 256] → [16, 256, 256] (n, i, o) ↦ Σ_j l(n, i, j) · r(n, j, o)
  The contraction index of each is one coordinate; the sum is re-indexed through it.
-/
import proofs.«124189_j15032385536186_2_alg».proof.Proof.Gen.KernelIdeal
import Idealize.ShloMosaic.Lib.ValueIdx
import Idealize.ShloMosaic.PureOps.Ideal.Laws

noncomputable section

open scoped BigOperators

namespace Cert.KernelIdeal.Dots

open Cert.KernelIdeal Cert.KernelIdeal.Gen Idealize.ShloMosaic Idealize.ShloMosaic.ValueIdx

theorem mmfg_lhs_0 (i : S4096x64.Idx) (q : dot_S4096x256_S256x64_S4096x64_1_0_0_1_n_n.contr.Idx) :
    (dot_S4096x256_S256x64_S4096x64_1_0_0_1_n_n.lhsIdx i q 0).val = (i 0).val := by
  unfold DotDims.lhsIdx
  rw [dif_neg (show ¬(0 : Fin S4096x256.rank) ∈ dot_S4096x256_S256x64_S4096x64_1_0_0_1_n_n.lhsBatch by decide), dif_pos (show (0 : Fin S4096x256.rank) ∈ dot_S4096x256_S256x64_S4096x64_1_0_0_1_n_n.lhsNonContracting by decide)]
  rfl
theorem mmfg_lhs_1 (i : S4096x64.Idx) (q : dot_S4096x256_S256x64_S4096x64_1_0_0_1_n_n.contr.Idx) :
    (dot_S4096x256_S256x64_S4096x64_1_0_0_1_n_n.lhsIdx i q 1).val = (q ⟨0, by decide⟩).val :=
  dot_S4096x256_S256x64_S4096x64_1_0_0_1_n_n.lhsIdx_val_of_single rfl i q
theorem mmfg_rhs_0 (i : S4096x64.Idx) (q : dot_S4096x256_S256x64_S4096x64_1_0_0_1_n_n.contr.Idx) :
    (dot_S4096x256_S256x64_S4096x64_1_0_0_1_n_n.rhsIdx i q 0).val = (q ⟨0, by decide⟩).val :=
  dot_S4096x256_S256x64_S4096x64_1_0_0_1_n_n.rhsIdx_val_of_single rfl i q
theorem mmfg_rhs_1 (i : S4096x64.Idx) (q : dot_S4096x256_S256x64_S4096x64_1_0_0_1_n_n.contr.Idx) :
    (dot_S4096x256_S256x64_S4096x64_1_0_0_1_n_n.rhsIdx i q 1).val = (i 1).val := by
  unfold DotDims.rhsIdx
  rw [dif_neg (show ¬(1 : Fin S256x64.rank) ∈ dot_S4096x256_S256x64_S4096x64_1_0_0_1_n_n.rhsBatch by decide), dif_pos (show (1 : Fin S256x64.rank) ∈ dot_S4096x256_S256x64_S4096x64_1_0_0_1_n_n.rhsNonContracting by decide)]
  rfl
/-- The product of the pixel rows with the fused f|g weights, at (r, q): Σ_c l(r, c) · w(c, q). -/
theorem mmfg_apply {φ₁ φ₂ : FTy} (prec : Option ContractPrecision) (l : FVec Ideal S4096x256 φ₁) (r : FVec Ideal S256x64 φ₂) (a : Fin 4096) (b : Fin 64) :
    matmul dot_S4096x256_S256x64_S4096x64_1_0_0_1_n_n prec l r (constant S4096x64 .f32 0x00000000#32) (ix2 a b)
      = ∑ k : Fin 256, l (ix2 a k) * r (ix2 k b) := by
  simp only [matmul]
  rw [Ideal.matmul_constant_zero_apply, ← Equiv.sum_comp (ValueIdx.contrEquiv1 dot_S4096x256_S256x64_S4096x64_1_0_0_1_n_n 256 rfl rfl).symm]
  refine Finset.sum_congr rfl fun k _ => ?_
  have hk := ValueIdx.contrEquiv1_symm_val dot_S4096x256_S256x64_S4096x64_1_0_0_1_n_n 256 rfl rfl k
  have el : dot_S4096x256_S256x64_S4096x64_1_0_0_1_n_n.lhsIdx (ix2 a b) ((ValueIdx.contrEquiv1 dot_S4096x256_S256x64_S4096x64_1_0_0_1_n_n 256 rfl rfl).symm k) = ix2 a k := funext fun a => Fin.ext (by
    match a with
    | ⟨0, _⟩ => exact mmfg_lhs_0 _ _
    | ⟨1, _⟩ => exact (mmfg_lhs_1 _ _).trans hk)
  have er : dot_S4096x256_S256x64_S4096x64_1_0_0_1_n_n.rhsIdx (ix2 a b) ((ValueIdx.contrEquiv1 dot_S4096x256_S256x64_S4096x64_1_0_0_1_n_n 256 rfl rfl).symm k) = ix2 k b := funext fun a => Fin.ext (by
    match a with
    | ⟨0, _⟩ => exact (mmfg_rhs_0 _ _).trans hk
    | ⟨1, _⟩ => exact mmfg_rhs_1 _ _)
  rw [el, er]

theorem mmh_lhs_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem mmh_lhs_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem mmh_rhs_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem mmh_rhs_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl
/-- The product of the pixel rows with the h weights, at (r, o): Σ_c l(r, c) · w(c, o). -/
theorem mmh_apply {φ₁ φ₂ : FTy} (prec : Option ContractPrecision) (l : FVec Ideal S4096x256 φ₁) (r : FVec Ideal S256x256 φ₂) (a : Fin 4096) (b : Fin 256) :
    matmul dot_S4096x256_S256x256_S4096x256_1_0_0_1_n_n prec l r (constant S4096x256 .f32 0x00000000#32) (ix2 a b)
      = ∑ k : Fin 256, l (ix2 a k) * r (ix2 k b) := by
  simp only [matmul]
  rw [Ideal.matmul_constant_zero_apply, ← Equiv.sum_comp (ValueIdx.contrEquiv1 dot_S4096x256_S256x256_S4096x256_1_0_0_1_n_n 256 rfl rfl).symm]
  refine Finset.sum_congr rfl fun k _ => ?_
  have hk := ValueIdx.contrEquiv1_symm_val dot_S4096x256_S256x256_S4096x256_1_0_0_1_n_n 256 rfl rfl k
  have el : dot_S4096x256_S256x256_S4096x256_1_0_0_1_n_n.lhsIdx (ix2 a b) ((ValueIdx.contrEquiv1 dot_S4096x256_S256x256_S4096x256_1_0_0_1_n_n 256 rfl rfl).symm k) = ix2 a k := funext fun a => Fin.ext (by
    match a with
    | ⟨0, _⟩ => exact mmh_lhs_0 _ _
    | ⟨1, _⟩ => exact (mmh_lhs_1 _ _).trans hk)
  have er : dot_S4096x256_S256x256_S4096x256_1_0_0_1_n_n.rhsIdx (ix2 a b) ((ValueIdx.contrEquiv1 dot_S4096x256_S256x256_S4096x256_1_0_0_1_n_n 256 rfl rfl).symm k) = ix2 k b := funext fun a => Fin.ext (by
    match a with
    | ⟨0, _⟩ => exact (mmh_rhs_0 _ _).trans hk
    | ⟨1, _⟩ => exact mmh_rhs_1 _ _)
  rw [el, er]

theorem mmscore_lhs_0 (i : S16x256x256.Idx) (q : dot_S16x256x32_S16x256x32_S16x256x256_2_2_1_1_0_0.contr.Idx) :
    (dot_S16x256x32_S16x256x32_S16x256x256_2_2_1_1_0_0.lhsIdx i q 0).val = (i 0).val := by
  unfold DotDims.lhsIdx
  rw [dif_pos (show (0 : Fin S16x256x32.rank) ∈ dot_S16x256x32_S16x256x32_S16x256x256_2_2_1_1_0_0.lhsBatch by decide)]
  rfl
theorem mmscore_lhs_1 (i : S16x256x256.Idx) (q : dot_S16x256x32_S16x256x32_S16x256x256_2_2_1_1_0_0.contr.Idx) :
    (dot_S16x256x32_S16x256x32_S16x256x256_2_2_1_1_0_0.lhsIdx i q 1).val = (i 1).val := by
  unfold DotDims.lhsIdx
  rw [dif_neg (show ¬(1 : Fin S16x256x32.rank) ∈ dot_S16x256x32_S16x256x32_S16x256x256_2_2_1_1_0_0.lhsBatch by decide), dif_pos (show (1 : Fin S16x256x32.rank) ∈ dot_S16x256x32_S16x256x32_S16x256x256_2_2_1_1_0_0.lhsNonContracting by decide)]
  rfl
theorem mmscore_lhs_2 (i : S16x256x256.Idx) (q : dot_S16x256x32_S16x256x32_S16x256x256_2_2_1_1_0_0.contr.Idx) :
    (dot_S16x256x32_S16x256x32_S16x256x256_2_2_1_1_0_0.lhsIdx i q 2).val = (q ⟨0, by decide⟩).val :=
  dot_S16x256x32_S16x256x32_S16x256x256_2_2_1_1_0_0.lhsIdx_val_of_single rfl i q
theorem mmscore_rhs_0 (i : S16x256x256.Idx) (q : dot_S16x256x32_S16x256x32_S16x256x256_2_2_1_1_0_0.contr.Idx) :
    (dot_S16x256x32_S16x256x32_S16x256x256_2_2_1_1_0_0.rhsIdx i q 0).val = (i 0).val := by
  unfold DotDims.rhsIdx
  rw [dif_pos (show (0 : Fin S16x256x32.rank) ∈ dot_S16x256x32_S16x256x32_S16x256x256_2_2_1_1_0_0.rhsBatch by decide)]
  rfl
theorem mmscore_rhs_1 (i : S16x256x256.Idx) (q : dot_S16x256x32_S16x256x32_S16x256x256_2_2_1_1_0_0.contr.Idx) :
    (dot_S16x256x32_S16x256x32_S16x256x256_2_2_1_1_0_0.rhsIdx i q 1).val = (i 2).val := by
  unfold DotDims.rhsIdx
  rw [dif_neg (show ¬(1 : Fin S16x256x32.rank) ∈ dot_S16x256x32_S16x256x32_S16x256x256_2_2_1_1_0_0.rhsBatch by decide), dif_pos (show (1 : Fin S16x256x32.rank) ∈ dot_S16x256x32_S16x256x32_S16x256x256_2_2_1_1_0_0.rhsNonContracting by decide)]
  rfl
theorem mmscore_rhs_2 (i : S16x256x256.Idx) (q : dot_S16x256x32_S16x256x32_S16x256x256_2_2_1_1_0_0.contr.Idx) :
    (dot_S16x256x32_S16x256x32_S16x256x256_2_2_1_1_0_0.rhsIdx i q 2).val = (q ⟨0, by decide⟩).val :=
  dot_S16x256x32_S16x256x32_S16x256x256_2_2_1_1_0_0.rhsIdx_val_of_single rfl i q
/-- The pairwise comparison within image row n, at (i, j): Σ_k l(n, i, k) · r(n, j, k). -/
theorem mmscore_apply {φ₁ φ₂ : FTy} (prec : Option ContractPrecision) (l : FVec Ideal S16x256x32 φ₁) (r : FVec Ideal S16x256x32 φ₂) (n : Fin 16) (a b : Fin 256) :
    matmul dot_S16x256x32_S16x256x32_S16x256x256_2_2_1_1_0_0 prec l r (constant S16x256x256 .f32 0x00000000#32) (ix3 n a b)
      = ∑ k : Fin 32, l (ix3 n a k) * r (ix3 n b k) := by
  simp only [matmul]
  rw [Ideal.matmul_constant_zero_apply, ← Equiv.sum_comp (ValueIdx.contrEquiv1 dot_S16x256x32_S16x256x32_S16x256x256_2_2_1_1_0_0 32 rfl rfl).symm]
  refine Finset.sum_congr rfl fun k _ => ?_
  have hk := ValueIdx.contrEquiv1_symm_val dot_S16x256x32_S16x256x32_S16x256x256_2_2_1_1_0_0 32 rfl rfl k
  have el : dot_S16x256x32_S16x256x32_S16x256x256_2_2_1_1_0_0.lhsIdx (ix3 n a b) ((ValueIdx.contrEquiv1 dot_S16x256x32_S16x256x32_S16x256x256_2_2_1_1_0_0 32 rfl rfl).symm k) = ix3 n a k := funext fun a => Fin.ext (by
    match a with
    | ⟨0, _⟩ => exact mmscore_lhs_0 _ _
    | ⟨1, _⟩ => exact mmscore_lhs_1 _ _
    | ⟨2, _⟩ => exact (mmscore_lhs_2 _ _).trans hk)
  have er : dot_S16x256x32_S16x256x32_S16x256x256_2_2_1_1_0_0.rhsIdx (ix3 n a b) ((ValueIdx.contrEquiv1 dot_S16x256x32_S16x256x32_S16x256x256_2_2_1_1_0_0 32 rfl rfl).symm k) = ix3 n b k := funext fun a => Fin.ext (by
    match a with
    | ⟨0, _⟩ => exact mmscore_rhs_0 _ _
    | ⟨1, _⟩ => exact mmscore_rhs_1 _ _
    | ⟨2, _⟩ => exact (mmscore_rhs_2 _ _).trans hk)
  rw [el, er]

theorem mmout_lhs_0 (i : S16x256x256.Idx) (q : dot_S16x256x256_S16x256x256_S16x256x256_2_1_1_2_0_0.contr.Idx) :
    (dot_S16x256x256_S16x256x256_S16x256x256_2_1_1_2_0_0.lhsIdx i q 0).val = (i 0).val := by
  unfold DotDims.lhsIdx
  rw [dif_pos (show (0 : Fin S16x256x256.rank) ∈ dot_S16x256x256_S16x256x256_S16x256x256_2_1_1_2_0_0.lhsBatch by decide)]
  rfl
theorem mmout_lhs_1 (i : S16x256x256.Idx) (q : dot_S16x256x256_S16x256x256_S16x256x256_2_1_1_2_0_0.contr.Idx) :
    (dot_S16x256x256_S16x256x256_S16x256x256_2_1_1_2_0_0.lhsIdx i q 1).val = (i 1).val := by
  unfold DotDims.lhsIdx
  rw [dif_neg (show ¬(1 : Fin S16x256x256.rank) ∈ dot_S16x256x256_S16x256x256_S16x256x256_2_1_1_2_0_0.lhsBatch by decide), dif_pos (show (1 : Fin S16x256x256.rank) ∈ dot_S16x256x256_S16x256x256_S16x256x256_2_1_1_2_0_0.lhsNonContracting by decide)]
  rfl
theorem mmout_lhs_2 (i : S16x256x256.Idx) (q : dot_S16x256x256_S16x256x256_S16x256x256_2_1_1_2_0_0.contr.Idx) :
    (dot_S16x256x256_S16x256x256_S16x256x256_2_1_1_2_0_0.lhsIdx i q 2).val = (q ⟨0, by decide⟩).val :=
  dot_S16x256x256_S16x256x256_S16x256x256_2_1_1_2_0_0.lhsIdx_val_of_single rfl i q
theorem mmout_rhs_0 (i : S16x256x256.Idx) (q : dot_S16x256x256_S16x256x256_S16x256x256_2_1_1_2_0_0.contr.Idx) :
    (dot_S16x256x256_S16x256x256_S16x256x256_2_1_1_2_0_0.rhsIdx i q 0).val = (i 0).val := by
  unfold DotDims.rhsIdx
  rw [dif_pos (show (0 : Fin S16x256x256.rank) ∈ dot_S16x256x256_S16x256x256_S16x256x256_2_1_1_2_0_0.rhsBatch by decide)]
  rfl
theorem mmout_rhs_1 (i : S16x256x256.Idx) (q : dot_S16x256x256_S16x256x256_S16x256x256_2_1_1_2_0_0.contr.Idx) :
    (dot_S16x256x256_S16x256x256_S16x256x256_2_1_1_2_0_0.rhsIdx i q 1).val = (q ⟨0, by decide⟩).val :=
  dot_S16x256x256_S16x256x256_S16x256x256_2_1_1_2_0_0.rhsIdx_val_of_single rfl i q
theorem mmout_rhs_2 (i : S16x256x256.Idx) (q : dot_S16x256x256_S16x256x256_S16x256x256_2_1_1_2_0_0.contr.Idx) :
    (dot_S16x256x256_S16x256x256_S16x256x256_2_1_1_2_0_0.rhsIdx i q 2).val = (i 2).val := by
  unfold DotDims.rhsIdx
  rw [dif_neg (show ¬(2 : Fin S16x256x256.rank) ∈ dot_S16x256x256_S16x256x256_S16x256x256_2_1_1_2_0_0.rhsBatch by decide), dif_pos (show (2 : Fin S16x256x256.rank) ∈ dot_S16x256x256_S16x256x256_S16x256x256_2_1_1_2_0_0.rhsNonContracting by decide)]
  rfl
/-- The weighted sum within image row n, at (i, o): Σ_j l(n, i, j) · r(n, j, o). -/
theorem mmout_apply {φ₁ φ₂ : FTy} (prec : Option ContractPrecision) (l : FVec Ideal S16x256x256 φ₁) (r : FVec Ideal S16x256x256 φ₂) (n : Fin 16) (a b : Fin 256) :
    matmul dot_S16x256x256_S16x256x256_S16x256x256_2_1_1_2_0_0 prec l r (constant S16x256x256 .f32 0x00000000#32) (ix3 n a b)
      = ∑ k : Fin 256, l (ix3 n a k) * r (ix3 n k b) := by
  simp only [matmul]
  rw [Ideal.matmul_constant_zero_apply, ← Equiv.sum_comp (ValueIdx.contrEquiv1 dot_S16x256x256_S16x256x256_S16x256x256_2_1_1_2_0_0 256 rfl rfl).symm]
  refine Finset.sum_congr rfl fun k _ => ?_
  have hk := ValueIdx.contrEquiv1_symm_val dot_S16x256x256_S16x256x256_S16x256x256_2_1_1_2_0_0 256 rfl rfl k
  have el : dot_S16x256x256_S16x256x256_S16x256x256_2_1_1_2_0_0.lhsIdx (ix3 n a b) ((ValueIdx.contrEquiv1 dot_S16x256x256_S16x256x256_S16x256x256_2_1_1_2_0_0 256 rfl rfl).symm k) = ix3 n a k := funext fun a => Fin.ext (by
    match a with
    | ⟨0, _⟩ => exact mmout_lhs_0 _ _
    | ⟨1, _⟩ => exact mmout_lhs_1 _ _
    | ⟨2, _⟩ => exact (mmout_lhs_2 _ _).trans hk)
  have er : dot_S16x256x256_S16x256x256_S16x256x256_2_1_1_2_0_0.rhsIdx (ix3 n a b) ((ValueIdx.contrEquiv1 dot_S16x256x256_S16x256x256_S16x256x256_2_1_1_2_0_0 256 rfl rfl).symm k) = ix3 n k b := funext fun a => Fin.ext (by
    match a with
    | ⟨0, _⟩ => exact mmout_rhs_0 _ _
    | ⟨1, _⟩ => exact (mmout_rhs_1 _ _).trans hk
    | ⟨2, _⟩ => exact mmout_rhs_2 _ _)
  rw [el, er]

end Cert.KernelIdeal.Dots

end
-- ==== Proof.KernelStages.lean ====
/-
  What the kernel body stores, read at an index, at the ideal values.

  The body loads a block of sixteen image rows, X : [16, 256, 256] (row n, pixel p, channel c), the fused
  weights Wfg : [256, 64] (columns 0–31 are f's, 32–63 are g's) with their bias [1, 1, 64], and the h weights
  [256, 256] with their bias [1, 1, 256].  It flattens the block to 4096 pixel rows (row 256·n + p),
  multiplies, adds the bias along every row, cuts the f and g halves out of the 64 columns and folds the 4096
  rows back to [16, 256, ·].  Each stage is named here and read at an index; composed, the stored value at
  (n, i, o) is `Attn.attnRow` of image row n of the block at pixel i and channel o.
  A change of float format is the identity on the extended reals, so the two narrowings to bf16 vanish.
-/
import proofs.«124189_j15032385536186_2_alg».proof.Proof.Gen.KernelIdeal.Skeleton
import proofs.«124189_j15032385536186_2_alg».proof.Proof.KernelDots
import proofs.«124189_j15032385536186_2_alg».proof.Proof.AttnSpec
import Idealize.ShloMosaic.Lib.Pipeline.Value
import Idealize.ShloMosaic.Lib.ValueLayout

noncomputable section

open scoped BigOperators

namespace Cert.KernelIdeal.Stages

open Cert.KernelIdeal Idealize.ShloMosaic Idealize.ShloMosaic.ValueIdx
open Facts₀

/-- Pixel p of image row n is row 256·n + p of the flattened block. -/
def row (n : Fin 16) (p : Fin 256) : Fin 4096 := ⟨n.val * 256 + p.val, by omega⟩
/-- Column k of the f half of the fused 64 columns. -/
def lo (k : Fin 32) : Fin 64 := ⟨k.val, by omega⟩
/-- Column k of the g half of the fused 64 columns. -/
def hi (k : Fin 32) : Fin 64 := ⟨32 + k.val, by omega⟩

/-- The block flattened to 4096 pixel rows. -/
def rows (x0 : Vec Ideal S16x256x256 .f32) : FVec Ideal S4096x256 .f32 :=
  shapeCast S4096x256 (shapeCast S16x256x256 x0 shapeCasts_S16x256x256_S16x256x256 : FVec Ideal S16x256x256 .f32) shapeCasts_S16x256x256_S4096x256

/-- The fused f|g affine map of every pixel row. -/
def fg (x0 : Vec Ideal S16x256x256 .f32) (x1 : Vec Ideal S256x64 .f32) (x2 : Vec Ideal S1x1x64 .f32) : FVec Ideal S4096x64 .f32 :=
  addf (matmul dot_S4096x256_S256x64_S4096x64_1_0_0_1_n_n (some .fp32) (rows x0) (shapeCast S256x64 x1 shapeCasts_S256x64_S256x64 : FVec Ideal S256x64 .f32) (constant S4096x64 .f32 0x00000000#32))
    (broadcastTo S4096x64 (shapeCast S1x64 (shapeCast S1x1x64 x2 shapeCasts_S1x1x64_S1x1x64 : FVec Ideal S1x1x64 .f32) shapeCasts_S1x1x64_S1x64 : FVec Ideal S1x64 .f32) broadcasts_S1x64_S4096x64)

/-- Its f half, folded back to [16, 256, 32]. -/
def fpart (x0 : Vec Ideal S16x256x256 .f32) (x1 : Vec Ideal S256x64 .f32) (x2 : Vec Ideal S1x1x64 .f32) : FVec Ideal S16x256x32 .f32 :=
  shapeCast S16x256x32 (extractStridedSlice S4096x32 ![0, 0] (fg x0 x1 x2) slices_S4096x64_o0_0_S4096x32) shapeCasts_S4096x32_S16x256x32

/-- Its g half, folded back to [16, 256, 32]. -/
def gpart (x0 : Vec Ideal S16x256x256 .f32) (x1 : Vec Ideal S256x64 .f32) (x2 : Vec Ideal S1x1x64 .f32) : FVec Ideal S16x256x32 .f32 :=
  shapeCast S16x256x32 (extractStridedSlice S4096x32 ![0, 32] (fg x0 x1 x2) slices_S4096x64_o0_32_S4096x32) shapeCasts_S4096x32_S16x256x32

/-- The pairwise comparisons within each image row. -/
def scores (x0 : Vec Ideal S16x256x256 .f32) (x1 : Vec Ideal S256x64 .f32) (x2 : Vec Ideal S1x1x64 .f32) : FVec Ideal S16x256x256 .f32 :=
  matmul dot_S16x256x32_S16x256x32_S16x256x256_2_2_1_1_0_0 (some .fp32) (fpart x0 x1 x2) (gpart x0 x1 x2) (constant S16x256x256 .f32 0x00000000#32)

/-- The h affine map of every pixel row, folded back to [16, 256, 256]. -/
def hval (x0 : Vec Ideal S16x256x256 .f32) (x3 : Vec Ideal S256x256 .f32) (x4 : Vec Ideal S1x1x256 .f32) : FVec Ideal S16x256x256 .f32 :=
  shapeCast S16x256x256 (addf (matmul dot_S4096x256_S256x256_S4096x256_1_0_0_1_n_n none (truncf .bf16 (rows x0) bitsLt_bf16_f32) (truncf .bf16 (x3 : FVec Ideal S256x256 .f32) bitsLt_bf16_f32) (constant S4096x256 .f32 0x00000000#32))
    (broadcastTo S4096x256 (shapeCast S1x256 (shapeCast S1x1x256 x4 shapeCasts_S1x1x256_S1x1x256 : FVec Ideal S1x1x256 .f32) shapeCasts_S1x1x256_S1x256 : FVec Ideal S1x256 .f32) broadcasts_S1x256_S4096x256)) shapeCasts_S4096x256_S16x256x256

/-- The stored value is the weighted sum of the h values by the logistic of the comparisons. -/
theorem pay_eq (x0 : Vec Ideal S16x256x256 .f32) (x1 : Vec Ideal S256x64 .f32) (x2 : Vec Ideal S1x1x64 .f32) (x3 : Vec Ideal S256x256 .f32) (x4 : Vec Ideal S1x1x256 .f32) :
    Gen.k0_pay1 (F := Ideal) x0 x1 x2 x3 x4
      = matmul dot_S16x256x256_S16x256x256_S16x256x256_2_1_1_2_0_0 none (truncf .bf16 (logistic (scores x0 x1 x2)) bitsLt_bf16_f32) (truncf .bf16 (hval x0 x3 x4) bitsLt_bf16_f32) (constant S16x256x256 .f32 0x00000000#32) := rfl

/-- Row 256·n + p, channel c of the flattened block is the block at (n, p, c). -/
theorem rows_apply (x0 : Vec Ideal S16x256x256 .f32) (n : Fin 16) (p c : Fin 256) :
    rows x0 (ix2 (row n p) c) = x0 (ix3 n p c) := by
  unfold rows
  rw [shapeCast_self]
  exact shapeCast_apply x0 _ _ _ (by
    rw [Shape.rowMajor_val_three, Shape.rowMajor_val_two]
    show (n.val * 256 + p.val) * 256 + c.val = (n.val * 256 + p.val) * 256 + c.val
    rfl)

/-- The fused affine map at pixel (n, p), column q: Σ_c X(n, p, c) · Wfg(c, q) + bias(q). -/
theorem fg_apply (x0 : Vec Ideal S16x256x256 .f32) (x1 : Vec Ideal S256x64 .f32) (x2 : Vec Ideal S1x1x64 .f32)
    (n : Fin 16) (p : Fin 256) (q : Fin 64) :
    fg x0 x1 x2 (ix2 (row n p) q) = (∑ c : Fin 256, x0 (ix3 n p c) * x1 (ix2 c q)) + x2 (ix3 (0 : Fin 1) (0 : Fin 1) q) := by
  unfold fg
  rw [addf_apply, Dots.mmfg_apply, shapeCast_self, broadcastTo_1b_ab_apply, shapeCast_1ab_ab_apply, shapeCast_self]
  simp only [rows_apply]

/-- The f half at (n, p, k) is the fused map at row 256·n + p, column k. -/
theorem fpart_apply (x0 : Vec Ideal S16x256x256 .f32) (x1 : Vec Ideal S256x64 .f32) (x2 : Vec Ideal S1x1x64 .f32)
    (n : Fin 16) (p : Fin 256) (k : Fin 32) :
    fpart x0 x1 x2 (ix3 n p k) = fg x0 x1 x2 (ix2 (row n p) (lo k)) := by
  unfold fpart
  refine (shapeCast_apply _ _ (ix3 n p k) (ix2 (row n p) k) ?_).trans ?_
  · rw [Shape.rowMajor_val_three, Shape.rowMajor_val_two]
    show (n.val * 256 + p.val) * 32 + k.val = (n.val * 256 + p.val) * 32 + k.val
    rfl
  · exact slice2_axis1_apply 0 _ _ (row n p) k (lo k) (by show k.val = 0 + k.val; omega)

/-- The g half at (n, p, k) is the fused map at row 256·n + p, column 32 + k. -/
theorem gpart_apply (x0 : Vec Ideal S16x256x256 .f32) (x1 : Vec Ideal S256x64 .f32) (x2 : Vec Ideal S1x1x64 .f32)
    (n : Fin 16) (p : Fin 256) (k : Fin 32) :
    gpart x0 x1 x2 (ix3 n p k) = fg x0 x1 x2 (ix2 (row n p) (hi k)) := by
  unfold gpart
  refine (shapeCast_apply _ _ (ix3 n p k) (ix2 (row n p) k) ?_).trans ?_
  · rw [Shape.rowMajor_val_three, Shape.rowMajor_val_two]
    show (n.val * 256 + p.val) * 32 + k.val = (n.val * 256 + p.val) * 32 + k.val
    rfl
  · exact slice2_axis1_apply 32 _ _ (row n p) k (hi k) rfl

/-- The comparison of pixels i and j of image row n. -/
theorem scores_apply (x0 : Vec Ideal S16x256x256 .f32) (x1 : Vec Ideal S256x64 .f32) (x2 : Vec Ideal S1x1x64 .f32)
    (n : Fin 16) (i j : Fin 256) :
    scores x0 x1 x2 (ix3 n i j) = ∑ k : Fin 32, fpart x0 x1 x2 (ix3 n i k) * gpart x0 x1 x2 (ix3 n j k) := by
  unfold scores
  exact Dots.mmscore_apply _ _ _ n i j

/-- The h affine map at pixel (n, p), channel o: Σ_c X(n, p, c) · Wh(c, o) + bias(o). -/
theorem hval_apply (x0 : Vec Ideal S16x256x256 .f32) (x3 : Vec Ideal S256x256 .f32) (x4 : Vec Ideal S1x1x256 .f32)
    (n : Fin 16) (p o : Fin 256) :
    hval x0 x3 x4 (ix3 n p o) = (∑ c : Fin 256, x0 (ix3 n p c) * x3 (ix2 c o)) + x4 (ix3 (0 : Fin 1) (0 : Fin 1) o) := by
  unfold hval
  refine (shapeCast_apply _ _ (ix3 n p o) (ix2 (row n p) o) ?_).trans ?_
  · rw [Shape.rowMajor_val_three, Shape.rowMajor_val_two]
    show (n.val * 256 + p.val) * 256 + o.val = (n.val * 256 + p.val) * 256 + o.val
    rfl
  · rw [addf_apply, Dots.mmh_apply, broadcastTo_1b_ab_apply, shapeCast_1ab_ab_apply, shapeCast_self]
    simp only [truncf_apply, rows_apply]

/-- THE STORED VALUE at (n, i, o): image row n of the block, treated as `Attn.attnRow` treats a row. -/
theorem pay_apply (x0 : Vec Ideal S16x256x256 .f32) (x1 : Vec Ideal S256x64 .f32) (x2 : Vec Ideal S1x1x64 .f32) (x3 : Vec Ideal S256x256 .f32) (x4 : Vec Ideal S1x1x256 .f32)
    (n : Fin 16) (i o : Fin 256) :
    Gen.k0_pay1 (F := Ideal) x0 x1 x2 x3 x4 (ix3 n i o)
      = Attn.attnRow (fun p c => x0 (ix3 n p c)) (fun c k => x1 (ix2 c (lo k))) (fun c k => x1 (ix2 c (hi k)))
          (fun k => x2 (ix3 (0 : Fin 1) (0 : Fin 1) (lo k))) (fun k => x2 (ix3 (0 : Fin 1) (0 : Fin 1) (hi k)))
          (fun c o => x3 (ix2 c o)) (fun o => x4 (ix3 (0 : Fin 1) (0 : Fin 1) o)) i o := by
  rw [pay_eq, Dots.mmout_apply]
  unfold Attn.attnRow Attn.score Attn.proj
  refine Finset.sum_congr rfl fun j _ => ?_
  rw [truncf_apply, truncf_apply, hval_apply]
  show Ideal.logistic (scores x0 x1 x2 (ix3 n i j)) * _ = _
  rw [scores_apply]
  simp only [fpart_apply, gpart_apply, fg_apply]

end Cert.KernelIdeal.Stages

end
-- ==== Proof.KernelArrays.lean ====
/-
  What the kernel finds in its windows' arrays, as functions of the arguments.

  Before the launch the host reshapes the input [4, 256, 256, 256] to [1024, 256, 256] (image row 256·b + h),
  concatenates the f and g weights along the columns ([256, 32] | [256, 32] → [256, 64]) and the f and g biases
  end to end ([32] ++ [32] → [64], reshaped to [1, 1, 64]), and reshapes the h bias to [1, 1, 256]; the h weights
  are passed as they are.  Each of these arrays is read here at an index, by coordinates.  Then each window's
  block at a grid point is read: the input's block t is image rows 16·t … 16·t + 15, the other four windows
  hold their whole arrays at every point.
-/
import proofs.«124189_j15032385536186_2_alg».proof.Proof.Gen.KernelIdeal.Frame
import proofs.«124189_j15032385536186_2_alg».proof.Proof.KernelStages
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Stages Idealize.ShloMosaic.ValueIdx Idealize.ShloMosaic.StableHlo

variable (m : (ℓ : Loc nD τ sig) → Buf (Elt Ideal) ℓ)

/-! ## The arrays the host prepares -/

/-- The input as the kernel finds it: reshaped to 1024 image rows. -/
theorem V_x (c : Dev nD) : (V m c main_v0 : S1024x256x256.Idx → Elt Ideal .f32)
    = shapeCast S1024x256x256 (m ((c : Thread nD τ).loc main_arg0)) Gen.shapeCasts_S4x256x256x256_S1024x256x256 := by
  show StableHlo.after hostOps0 (fun b => m (c, b)) (Proc.devRef .tc main_v0) = _
  after_results
  rfl

/-- The fused weights: f's columns, then g's. -/
theorem V_wfg (c : Dev nD) : (V m c main_v1 : S256x64.Idx → Elt Ideal .f32)
    = concatenate S256x64 1 [⟨S256x32, m ((c : Thread nD τ).loc main_arg1)⟩, ⟨S256x32, m ((c : Thread nD τ).loc main_arg3)⟩] Gen.concatenates_S256x32_S256x32_S256x64_d1 := by
  show StableHlo.after hostOps0 (fun b => m (c, b)) (Proc.devRef .tc main_v1) = _
  after_results

/-- The fused bias: f's entries, then g's, as a [1, 1, 64] array. -/
theorem V_bfg (c : Dev nD) : (V m c main_v3 : S1x1x64.Idx → Elt Ideal .f32)
    = shapeCast S1x1x64 (concatenate S64 0 [⟨S32, m ((c : Thread nD τ).loc main_arg2)⟩, ⟨S32, m ((c : Thread nD τ).loc main_arg4)⟩] Gen.concatenates_S32_S32_S64_d0) Gen.shapeCasts_S64_S1x1x64 := by
  show StableHlo.after hostOps0 (fun b => m (c, b)) (Proc.devRef .tc main_v3) = _
  after_results
  rfl

/-- The h bias as a [1, 1, 256] array. -/
theorem V_bh (c : Dev nD) : (V m c main_v4 : S1x1x256.Idx → Elt Ideal .f32)
    = shapeCast S1x1x256 (m ((c : Thread nD τ).loc main_arg6)) Gen.shapeCasts_S256_S1x1x256 := by
  show StableHlo.after hostOps0 (fun b => m (c, b)) (Proc.devRef .tc main_v4) = _
  after_results
  rfl

/-! ## The prepared arrays at an index -/

/-- Image row N of the reshaped input is row (N / 256, N % 256) of the argument. -/
theorem x_at (c : Dev nD) (N : Fin 1024) (p c' : Fin 256) :
    (V m c main_v0 : S1024x256x256.Idx → Elt Ideal .f32) (ix3 N p c')
      = (m ((c : Thread nD τ).loc main_arg0) : S4x256x256x256.Idx → Elt Ideal .f32)
          (ix4 (⟨N.val / 256, by omega⟩ : Fin 4) (⟨N.val % 256, by omega⟩ : Fin 256) p c') := by
  rw [V_x]
  exact shapeCast_apply _ _ _ _ (by
    show (S4x256x256x256.rowMajor _).val = (S1024x256x256.rowMajor _).val
    rw [Shape.rowMajor_val_four, Shape.rowMajor_val_three]
    show ((N.val / 256 * 256 + N.val % 256) * 256 + p.val) * 256 + c'.val = (N.val * 256 + p.val) * 256 + c'.val
    omega)

/-- Column k of the fused weights' first half is f's column k. -/
theorem wfg_lo (c : Dev nD) (c' : Fin 256) (k : Fin 32) :
    (V m c main_v1 : S256x64.Idx → Elt Ideal .f32) (ix2 c' (lo k))
      = (m ((c : Thread nD τ).loc main_arg1) : S256x32.Idx → Elt Ideal .f32) (ix2 c' k) := by
  rw [V_wfg]
  exact concatenate_pair_apply_left (t := S256x64) (s₁ := S256x32) (s₂ := S256x32) (1 : Fin 2) _ _ _ (ix2 c' (lo k)) rfl (ix2 c' k)
    (fun b => by match b with | ⟨0, _⟩ => rfl | ⟨1, _⟩ => rfl)

/-- Column 32 + k of the fused weights is g's column k. -/
theorem wfg_hi (c : Dev nD) (c' : Fin 256) (k : Fin 32) :
    (V m c main_v1 : S256x64.Idx → Elt Ideal .f32) (ix2 c' (hi k))
      = (m ((c : Thread nD τ).loc main_arg3) : S256x32.Idx → Elt Ideal .f32) (ix2 c' k) := by
  rw [V_wfg]
  exact concatenate_pair_apply_right (t := S256x64) (s₁ := S256x32) (s₂ := S256x32) (1 : Fin 2) _ _ _ (ix2 c' (hi k)) rfl rfl (ix2 c' k)
    (fun b hb => by match b with | ⟨0, _⟩ => rfl | ⟨1, _⟩ => exact absurd rfl hb)
    (by show k.val + 32 = 32 + k.val; omega)

/-- Entry k of the fused bias's first half is f's entry k. -/
theorem bfg_lo (c : Dev nD) (k : Fin 32) :
    (V m c main_v3 : S1x1x64.Idx → Elt Ideal .f32) (ix3 (0 : Fin 1) (0 : Fin 1) (lo k))
      = (m ((c : Thread nD τ).loc main_arg2) : S32.Idx → Elt Ideal .f32) (ix1 k) := by
  rw [V_bfg]
  refine (shapeCast_apply _ _ (ix3 (0 : Fin 1) (0 : Fin 1) (lo k)) (ix1 (lo k)) ?_).trans ?_
  · show (S64.rowMajor _).val = (S1x1x64.rowMajor _).val
    rw [Shape.rowMajor_val_three, Shape.rowMajor_val_one]
    show (lo k).val = (0 * 1 + 0) * 64 + (lo k).val
    omega
  · exact concatenate_pair_apply_left (t := S64) (s₁ := S32) (s₂ := S32) (0 : Fin 1) _ _ _ (ix1 (lo k)) rfl (ix1 k)
      (fun b => by match b with | ⟨0, _⟩ => rfl)

/-- Entry 32 + k of the fused bias is g's entry k. -/
theorem bfg_hi (c : Dev nD) (k : Fin 32) :
    (V m c main_v3 : S1x1x64.Idx → Elt Ideal .f32) (ix3 (0 : Fin 1) (0 : Fin 1) (hi k))
      = (m ((c : Thread nD τ).loc main_arg4) : S32.Idx → Elt Ideal .f32) (ix1 k) := by
  rw [V_bfg]
  refine (shapeCast_apply _ _ (ix3 (0 : Fin 1) (0 : Fin 1) (hi k)) (ix1 (hi k)) ?_).trans ?_
  · show (S64.rowMajor _).val = (S1x1x64.rowMajor _).val
    rw [Shape.rowMajor_val_three, Shape.rowMajor_val_one]
    show (hi k).val = (0 * 1 + 0) * 64 + (hi k).val
    omega
  · exact concatenate_pair_apply_right (t := S64) (s₁ := S32) (s₂ := S32) (0 : Fin 1) _ _ _ (ix1 (hi k)) rfl rfl (ix1 k)
      (fun b hb => by match b with | ⟨0, _⟩ => exact absurd rfl hb)
      (by show k.val + 32 = 32 + k.val; omega)

/-- Entry o of the reshaped h bias is the argument's entry o. -/
theorem bh_at (c : Dev nD) (o : Fin 256) :
    (V m c main_v4 : S1x1x256.Idx → Elt Ideal .f32) (ix3 (0 : Fin 1) (0 : Fin 1) o)
      = (m ((c : Thread nD τ).loc main_arg6) : S256.Idx → Elt Ideal .f32) (ix1 o) := by
  rw [V_bh]
  exact shapeCast_apply _ _ (ix3 (0 : Fin 1) (0 : Fin 1) o) (ix1 o) (by
    show (S256.rowMajor _).val = (S1x1x256.rowMajor _).val
    rw [Shape.rowMajor_val_three, Shape.rowMajor_val_one]
    show o.val = (0 * 1 + 0) * 256 + o.val
    omega)

/-! ## The windows' blocks at a grid point -/

/-- The printed index maps over the grid: the input's and the output's block index is the point's number on the
    first axis and zero on the others; the other four windows' is zero everywhere. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- Image row n of grid point t's block is image row 16·t + n of the 1024. -/
def imgRow (t : Fin cfg0.N) (n : Fin 16) : Fin 1024 :=
  ⟨16 * t.val + n.val, by have h := t.isLt; have hN : cfg0.N = 64 := N_0; omega⟩

/-- The input window's block at point t: image rows 16·t … 16·t + 15 of the reshaped input. -/
theorem blk_x (c : Dev nD) (t : Fin cfg0.N) (n : Fin 16) (p c' : Fin 256) :
    (iblk m c 0 t : Vec Ideal S16x256x256 .f32) (ix3 n p c')
      = (V m c main_v0 : S1024x256x256.Idx → Elt Ideal .f32) (ix3 (imgRow t n) p c') := by
  obtain ⟨e0, e1, e2, -⟩ := idx_facts t
  unfold iblk
  rw [View.read_apply]
  refine congrArg (V m c main_v0 : S1024x256x256.Idx → Elt Ideal .f32) ?_
  funext a; apply Fin.ext
  match a with
  | ⟨0, _⟩ => show win0_0.index t (0 : Fin 3) * 16 + 1 * n.val = 16 * t.val + n.val; omega
  | ⟨1, _⟩ => show win0_0.index t (1 : Fin 3) * 256 + 1 * p.val = p.val; omega
  | ⟨2, _⟩ => show win0_0.index t (2 : Fin 3) * 256 + 1 * c'.val = c'.val; omega

/-- The fused weights' window holds the whole array at every point. -/
theorem blk_wfg (c : Dev nD) (t : Fin cfg0.N) (y : S256x64.Idx) :
    (iblk m c 1 t : Vec Ideal S256x64 .f32) y = (V m c main_v1 : S256x64.Idx → Elt Ideal .f32) y := by
  obtain ⟨-, -, -, e0, e1, -⟩ := idx_facts t
  unfold iblk
  rw [View.read_apply]
  refine congrArg (V m c main_v1 : S256x64.Idx → Elt Ideal .f32) ?_
  funext a; apply Fin.ext
  match a with
  | ⟨0, _⟩ => show win0_1.index t (0 : Fin 2) * 256 + 1 * (y 0).val = (y 0).val; omega
  | ⟨1, _⟩ => show win0_1.index t (1 : Fin 2) * 64 + 1 * (y 1).val = (y 1).val; omega

/-- The fused bias's window holds the whole array at every point. -/
theorem blk_bfg (c : Dev nD) (t : Fin cfg0.N) (y : S1x1x64.Idx) :
    (iblk m c 2 t : Vec Ideal S1x1x64 .f32) y = (V m c main_v3 : S1x1x64.Idx → Elt Ideal .f32) y := by
  obtain ⟨-, -, -, -, -, e0, e1, e2, -⟩ := idx_facts t
  unfold iblk
  rw [View.read_apply]
  refine congrArg (V m c main_v3 : S1x1x64.Idx → Elt Ideal .f32) ?_
  funext a; apply Fin.ext
  match a with
  | ⟨0, _⟩ => show win0_2.index t (0 : Fin 3) * 1 + 1 * (y 0).val = (y 0).val; omega
  | ⟨1, _⟩ => show win0_2.index t (1 : Fin 3) * 1 + 1 * (y 1).val = (y 1).val; omega
  | ⟨2, _⟩ => show win0_2.index t (2 : Fin 3) * 64 + 1 * (y 2).val = (y 2).val; omega

/-- The h weights' window holds the whole argument at every point. -/
theorem blk_wh (c : Dev nD) (t : Fin cfg0.N) (y : S256x256.Idx) :
    (iblk m c 3 t : Vec Ideal S256x256 .f32) y = (m ((c : Thread nD τ).loc main_arg5) : S256x256.Idx → Elt Ideal .f32) y := by
  obtain ⟨-, -, -, -, -, -, -, -, e0, e1, -⟩ := idx_facts t
  unfold iblk
  rw [View.read_apply]
  refine (congrArg (V m c main_arg5 : S256x256.Idx → Elt Ideal .f32) ?_).trans (congrFun (V_main_arg5 m c) y)
  funext a; apply Fin.ext
  match a with
  | ⟨0, _⟩ => show win0_3.index t (0 : Fin 2) * 256 + 1 * (y 0).val = (y 0).val; omega
  | ⟨1, _⟩ => show win0_3.index t (1 : Fin 2) * 256 + 1 * (y 1).val = (y 1).val; omega

/-- The h bias's window holds the whole array at every point. -/
theorem blk_bh (c : Dev nD) (t : Fin cfg0.N) (y : S1x1x256.Idx) :
    (iblk m c 4 t : Vec Ideal S1x1x256 .f32) y = (V m c main_v4 : S1x1x256.Idx → Elt Ideal .f32) y := by
  obtain ⟨-, -, -, -, -, -, -, -, -, -, e0, e1, e2, -⟩ := idx_facts t
  unfold iblk
  rw [View.read_apply]
  refine congrArg (V m c main_v4 : S1x1x256.Idx → Elt Ideal .f32) ?_
  funext a; apply Fin.ext
  match a with
  | ⟨0, _⟩ => show win0_4.index t (0 : Fin 3) * 1 + 1 * (y 0).val = (y 0).val; omega
  | ⟨1, _⟩ => show win0_4.index t (1 : Fin 3) * 1 + 1 * (y 1).val = (y 1).val; omega
  | ⟨2, _⟩ => show win0_4.index t (2 : Fin 3) * 256 + 1 * (y 2).val = (y 2).val; omega

end Cert.KernelIdeal.Arrays

end
-- ==== Proof.KernelWhole.lean ====
/-
  The kernel's run, read: the result array is `Attn.G` of the arguments.

  Grid point t computes image rows 16·t … 16·t + 15 of the [1024, 256, 256] array the launch writes, from the
  same image rows of the reshaped input and the whole parameter arrays; what it stores at (n, i, o) is
  `Attn.attnRow` of image row 16·t + n (module KernelStages), and that image row is row
  ((16·t + n) / 256, (16·t + n) % 256) of the argument (module KernelArrays).  The sixty-four blocks tile the
  array, so after the launch it holds, at (N, i, o), the value `Attn.G` has at (N / 256, N % 256, i, o); the
  host's last reshape to [4, 256, 256, 256] reads that at N = 256·b + h, which is `Attn.G` at (b, h, i, o).
-/
import proofs.«124189_j15032385536186_2_alg».proof.Proof.Gen.KernelIdeal.Frame
import proofs.«124189_j15032385536186_2_alg».proof.Proof.KernelArrays
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Stages Cert.KernelIdeal.Arrays
open Idealize.ShloMosaic.ValueIdx Idealize.ShloMosaic.StableHlo

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- `Attn.G` of core c's argument arrays. -/
abbrev GA (c : Dev nD) : S4x256x256x256.Idx → Elt Ideal .f32 :=
  Attn.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The launch's result at image row N, pixel i, channel o: `Attn.G` at (N / 256, N % 256, i, o). -/
def Rat (c : Dev nD) (N : Fin 1024) (i o : Fin 256) : Elt Ideal .f32 :=
  GA m c (ix4 (⟨N.val / 256, by omega⟩ : Fin 4) (⟨N.val % 256, by omega⟩ : Fin 256) i o)

/-- The launch's result array. -/
def R (c : Dev nD) : S1024x256x256.Idx → Elt Ideal .f32 := fun j => Rat m c (j 0) (j 1) (j 2)

/-- WHAT POINT t WRITES BACK is block t of `R`. -/
theorem flushed_eq (c : Dev nD) (t : Fin cfg0.N) :
    (dats m 0 c).flushed 5 t = ((cfg0.win 5).blk t).view.read (Elt Ideal) (R m c) := by
  show (cfg0.win 5).cut (grid0.coords t) ((dats m 0 c).after 5 t) = _
  rw [after0_5]
  unfold out0_5
  rw [View.canon_unit_zero hz3]
  simp only [View.ld_unit_zero (S := S16x256x256) hz3, View.ld_unit_zero (S := S256x64) hz2, View.ld_unit_zero (S := S1x1x64) hz3,
    View.ld_unit_zero (S := S256x256) hz2, View.ld_unit_zero (S := S1x1x256) hz3]
  funext j
  obtain ⟨n, i, o, rfl⟩ : ∃ (n : Fin 16) (i o : Fin 256), j = ix3 n i o := ⟨j 0, j 1, j 2, eq_ix3 j⟩
  obtain ⟨-, -, -, -, -, -, -, -, -, -, -, -, -, e0, e1, e2⟩ := idx_facts t
  have hemb : ((cfg0.win 5).blk t).view.emb (ix3 n i o) = ix3 (imgRow t n) i o := by
    funext a; apply Fin.ext
    match a with
    | ⟨0, _⟩ => show win0_5.index t (0 : Fin 3) * 16 + 1 * n.val = 16 * t.val + n.val; omega
    | ⟨1, _⟩ => show win0_5.index t (1 : Fin 3) * 256 + 1 * i.val = i.val; omega
    | ⟨2, _⟩ => show win0_5.index t (2 : Fin 3) * 256 + 1 * o.val = o.val; omega
  show k0_pay1 (iblk m c 0 t) (iblk m c 1 t) (iblk m c 2 t) (iblk m c 3 t) (iblk m c 4 t) (ix3 n i o)
    = R m c (((cfg0.win 5).blk t).view.emb (ix3 n i o))
  rw [hemb]
  refine (Stages.pay_apply _ _ _ _ _ n i o).trans ?_
  show _ = Attn.G _ _ _ _ _ _ _ (ix4 _ _ i o)
  rw [Attn.G_apply]
  refine Attn.attnRow_congr i o ?_ ?_ ?_ ?_ ?_ ?_ ?_
  · intro p c'; exact (blk_x m c t n p c').trans (x_at m c (imgRow t n) p c')
  · intro c' k; exact (blk_wfg m c t (ix2 c' (lo k))).trans (wfg_lo m c c' k)
  · intro c' k; exact (blk_wfg m c t (ix2 c' (hi k))).trans (wfg_hi m c c' k)
  · intro k; exact (blk_bfg m c t (ix3 (0 : Fin 1) (0 : Fin 1) (lo k))).trans (bfg_lo m c k)
  · intro k; exact (blk_bfg m c t (ix3 (0 : Fin 1) (0 : Fin 1) (hi k))).trans (bfg_hi m c k)
  · intro c' o'; exact blk_wh m c t (ix2 c' o')
  · intro o'; exact (blk_bh m c t (ix3 (0 : Fin 1) (0 : Fin 1) o')).trans (bh_at m c o')

/-- An index of the array is in point t's block iff each coordinate is in the block's range on its axis. -/
theorem mem_blk (t : Fin cfg0.N) (i : S1024x256x256.Idx) :
    i ∈ ((cfg0.win 5).blk t).view.set ↔ ∀ a : Fin 3, win0_5.index t a * S16x256x256.size a ≤ (i a).val ∧ (i a).val < win0_5.index t a * S16x256x256.size a + S16x256x256.size a := by
  show i ∈ ((View.whole main_v5).slice (win0_5.rect t)).set ↔ _
  rw [View.set_slice_whole, Rect.mem_set_unit]
  exact Iff.rfl

/-- Every index of the array is in the block of the point that computes its image row: point N / 16. -/
theorem cover (i : S1024x256x256.Idx) :
    ∃ t : Fin cfg0.N, (cfg0.win 5).flush t = true ∧ i ∈ ((cfg0.win 5).blk t).view.set := by
  have h0 : (i 0).val < 1024 := (i 0).isLt
  have h1 : (i 1).val < 256 := (i 1).isLt
  have h2 : (i 2).val < 256 := (i 2).isLt
  have hN : cfg0.N = 64 := N_0
  obtain ⟨t, ht⟩ : ∃ t : Fin cfg0.N, t.val = (i 0).val / 16 := ⟨⟨(i 0).val / 16, by omega⟩, rfl⟩
  obtain ⟨-, -, -, -, -, -, -, -, -, -, -, -, -, e0, e1, e2⟩ := idx_facts t
  refine ⟨t, flush0_5 t, ?_⟩
  rw [mem_blk]
  intro a
  match a with
  | ⟨0, _⟩ => show win0_5.index t (0 : Fin 3) * 16 ≤ (i 0).val ∧ (i 0).val < win0_5.index t (0 : Fin 3) * 16 + 16; omega
  | ⟨1, _⟩ => show win0_5.index t (1 : Fin 3) * 256 ≤ (i 1).val ∧ (i 1).val < win0_5.index t (1 : Fin 3) * 256 + 256; omega
  | ⟨2, _⟩ => show win0_5.index t (2 : Fin 3) * 256 ≤ (i 2).val ∧ (i 2).val < win0_5.index t (2 : Fin 3) * 256 + 256; omega

/-- THE ARRAY the launch leaves is `R`. -/
theorem final (c : Dev nD) : (dats m 0 c).arrAt 5 cfg0.N = R m c :=
  (dats m 0 c).arrAt_eq_of_cover 5 (R m c) (fun t _ => flushed_eq m c t) cover

/-- The host's last reshape of `R` to [4, 256, 256, 256] is `Attn.G` of the arguments: image row 256·b + h of
    `R` holds row (b, h)'s values. -/
theorem reshape_R (c : Dev nD) :
    shapeCast S4x256x256x256 (R m c) Gen.shapeCasts_S1024x256x256_S4x256x256x256 = GA m c := by
  funext j
  obtain ⟨b, h, i, o, rfl⟩ : ∃ (b : Fin 4) (h i o : Fin 256), j = ix4 b h i o := ⟨j 0, j 1, j 2, j 3, eq_ix4 j⟩
  refine (shapeCast_apply (R m c) _ (ix4 b h i o) (ix3 (⟨b.val * 256 + h.val, by omega⟩ : Fin 1024) i o) ?_).trans ?_
  · show (S1024x256x256.rowMajor _).val = (S4x256x256x256.rowMajor _).val
    rw [Shape.rowMajor_val_four, Shape.rowMajor_val_three]
    show ((b.val * 256 + h.val) * 256 + i.val) * 256 + o.val = ((b.val * 256 + h.val) * 256 + i.val) * 256 + o.val
    rfl
  · refine congrArg (GA m c) ?_
    funext a; apply Fin.ext
    match a with
    | ⟨0, _⟩ => show (b.val * 256 + h.val) / 256 = b.val; omega
    | ⟨1, _⟩ => show (b.val * 256 + h.val) % 256 = h.val; omega
    | ⟨2, _⟩ => rfl
    | ⟨3, _⟩ => rfl

/-- THE PROGRAM'S RESULT: after the launch and the last reshape, `Attn.G` of the arguments. -/
theorem result (c : Dev nD) :
    Pipeline.afterTail₀ cfgs (dats m) 0 (V0 m) [hostOps1] c main_v6 = GA m c := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5) = R m c :=
    (Pipeline.withArrays_arr spec0 launch0.win.arr_inj c _ _ 5).trans (final m c)
  show shapeCast S4x256x256x256 (Pipeline.withArrays (cfgs 0).spec c (V0 m c) (fun w => (dats m 0 c).arrAt w (cfgs 0).N) (Proc.devRef .tc main_v5))
    Gen.shapeCasts_S1024x256x256_S4x256x256x256 = GA m c
  rw [hw]
  exact reshape_R m c

/-- THE RUN, READ: every weakly fair execution of the program terminates with the result array at `Attn.G` of the
    arguments and the arguments unchanged. -/
theorem run : θ_run defs (onTc (τ := τ) (main (F := Ideal))) ⟨m, fun _ => 0, ρ⟩ (fun r => ∀ c : Dev nD,
      r.2.mem ((c.tc : Thread nD τ).loc main_v6) = GA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v6 (Pipeline.mem_restRefs_of main_v6 (by decide) (by decide))).trans (result m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 3).trans (((dats m 0 c).arrAt_in 3 rfl _).trans ((A_eq m c 3).trans (V_main_arg5 m c))),
      (((h c).2 main_arg6 (Pipeline.mem_restRefs_of main_arg6 (by decide) (by decide))).trans (W_main_arg6 m (dats m) c))⟩)
    (run_main m ρ)

end Cert.KernelIdeal.Whole

end
-- ==== Proof.lean ====
/-
  The certificate's five claims.

  Both idealized programs compute `Attn.G` (module AttnSpec): for every image row (b, h) of the input
  [4, 256, 256, 256], with X the row's 256 × 256 matrix of pixels by channels, the value at pixel i and channel o is
      Σ_j σ( Σ_k (X·Wf + bf)(i, k) · (X·Wg + bg)(j, k) ) · (X·Wh + bh)(j, o),        σ(s) = 1 / (1 + e^(-s)).
  The reference states it over the whole array with four contractions (module RefSide).  The kernel works on
  blocks of sixteen image rows of the input reshaped to [1024, 256, 256], with the f and g weights fused into one
  [256, 64] array whose two halves it cuts apart again, narrows three operands to bf16 — the identity on the
  extended reals — and stores the logistic-weighted sum (module KernelStages); its sixty-four blocks tile the
  result, which the host reshapes back (modules KernelArrays, KernelWhole).  The two sides take the same sums over
  the same coordinates in the same order, so no law of the extended reals beyond that is used and the finiteness
  of the inputs is never opened.  The three frames are the generated ones (the reference's is its generated run
  with the result dropped); the idealization rewrote nothing.
-/
import proofs.«124189_j15032385536186_2_alg».proof.Defs
import proofs.«124189_j15032385536186_2_alg».proof.Proof.Gen.Kernel
import proofs.«124189_j15032385536186_2_alg».proof.Proof.Gen.Kernel.Skeleton
import proofs.«124189_j15032385536186_2_alg».proof.Proof.Gen.Kernel.Launch
import proofs.«124189_j15032385536186_2_alg».proof.Proof.Gen.Kernel.Points
import proofs.«124189_j15032385536186_2_alg».proof.Proof.Gen.Kernel.Frame
import proofs.«124189_j15032385536186_2_alg».proof.Proof.Gen.KernelIdeal
import proofs.«124189_j15032385536186_2_alg».proof.Proof.Gen.KernelIdeal.Skeleton
import proofs.«124189_j15032385536186_2_alg».proof.Proof.Gen.KernelIdeal.Launch
import proofs.«124189_j15032385536186_2_alg».proof.Proof.Gen.KernelIdeal.Points
import proofs.«124189_j15032385536186_2_alg».proof.Proof.Gen.KernelIdeal.Frame
import proofs.«124189_j15032385536186_2_alg».proof.Proof.Gen.ReferenceIdeal
import proofs.«124189_j15032385536186_2_alg».proof.Proof.Gen.Pre_finite_inputs
import proofs.«124189_j15032385536186_2_alg».proof.Proof.Gen.ReferenceIdeal.Run
import proofs.«124189_j15032385536186_2_alg».proof.Proof.Gen.ReferenceIdeal.Read
import proofs.«124189_j15032385536186_2_alg».proof.Proof.RefSide
import proofs.«124189_j15032385536186_2_alg».proof.Proof.KernelWhole
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both programs end with their result arrays at `Attn.G` of the
    arguments: the kernel by its run read block by block, the reference by its run read stage by stage. -/
theorem algebraic : Cert.algebraic_KernelIdeal_ReferenceIdeal := by
  intro m ρ m' ρ' _ hagree
  refine ⟨fun c => Cert.KernelIdeal.Whole.GA m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result_eq]
  obtain ⟨e0, e1, e2, e3, e4, e5, e6⟩ := hagree c
  rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
